-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x128 : Shape := ⟨2, ![64, 128]⟩
abbrev S_ : Shape := ⟨0, ![]⟩

class Facts : Prop where
  bcast_S_S64x128 : S_.BroadcastsInDim S64x128 (![] : Fin 0 → Fin S64x128.rank)
  reducesTo_S64x128_S_d0_1 : S64x128.ReducesTo [0, 1] S_
  h_S_ : 0 < S_.numel

variable [Facts]

def fn {F : FTy → Type} [FloatOps F] (main_arg0 : FVec F S64x128 .f32) (main_arg1 : FVec F S64x128 .f32) : IVec S_ 1 :=
  let main_v0 : FVec F S64x128 .f32 := Host.absf main_arg0
  let main_cst : FVec F S_ .f32 := constant S_ .f32 0x7F800000#32
  let main_v1 : FVec F S64x128 .f32 := broadcastInDim S64x128 ![] bcast_S_S64x128 main_cst
  let main_v2 : IVec S64x128 1 := cmpf .olt main_v0 main_v1
  let main_c : IVec S_ 1 := constantI S_ 1 1#1
  let main_v3 : IVec S_ 1 := (fun x v => Host.reduce IntOp.andi x v reducesTo_S64x128_S_d0_1 h_S_) main_v2 main_c
  let main_v4 : FVec F S64x128 .f32 := Host.absf main_arg1
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  main_v8
-- ==== Kernel.lean ====
abbrev S64x128 : Shape := ⟨2, ![64, 128]⟩
abbrev S64x64 : Shape := ⟨2, ![64, 64]⟩
abbrev S8x128 : Shape := ⟨2, ![8, 128]⟩
abbrev S8x64 : Shape := ⟨2, ![8, 64]⟩
abbrev S8x1x128x1 : Shape := ⟨4, ![8, 1, 128, 1]⟩
abbrev S1x8x1x128 : Shape := ⟨4, ![1, 8, 1, 128]⟩
abbrev S8x8x128x128 : Shape := ⟨4, ![8, 8, 128, 128]⟩
abbrev S8x8x128 : Shape := ⟨3, ![8, 8, 128]⟩
abbrev S8x8 : Shape := ⟨2, ![8, 8]⟩

abbrev nBuf : Space → Nat
  | .hbm => 3
  | .vmem => 5
  | .smem => 0
  | _ => 0

abbrev bufTy : (tb : Table) → Fin (tcTables nBuf tb) → BufTy
  | .hbm, ⟨0, _⟩ => ⟨S64x128, .f32⟩
  | .hbm, ⟨1, _⟩ => ⟨S64x128, .f32⟩
  | .hbm, ⟨2, _⟩ => ⟨S64x64, .f32⟩
  | .local _ .vmem, ⟨0, _⟩ => ⟨S8x128, .f32⟩
  | .local _ .vmem, ⟨1, _⟩ => ⟨S8x128, .f32⟩
  | .local _ .vmem, ⟨2, _⟩ => ⟨S64x128, .f32⟩
  | .local _ .vmem, ⟨3, _⟩ => ⟨S8x64, .f32⟩
  | .local _ .vmem, ⟨4, _⟩ => ⟨S8x64, .f32⟩
  | _, _ => ⟨S64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S8x128_S8x128_0_0 : ∀ a, (![0, 0] : Fin 2 → Nat) a + S8x128.size a ≤ S8x128.size a
  h_S8x128 : 0 < S8x128.numel
  inb_S64x128_S64x128_0_0 : ∀ a, (![0, 0] : Fin 2 → Nat) a + S64x128.size a ≤ S64x128.size a
  h_S64x128 : 0 < S64x128.numel
  slices_S64x128_o0_0_S8x128 : S64x128.Slices ![0, 0] S8x128
  shapeCasts_S8x128_S8x1x128x1 : S8x128.ShapeCasts S8x1x128x1
  shapeCasts_S8x128_S1x8x1x128 : S8x128.ShapeCasts S1x8x1x128
  broadcasts_S8x1x128x1_S8x8x128x128 : S8x1x128x1.Broadcasts S8x8x128x128
  broadcasts_S1x8x1x128_S8x8x128x128 : S1x8x1x128.Broadcasts S8x8x128x128
  reduces_S8x8x128x128_S8x8x128 : S8x8x128x128.Reduces [3] S8x8x128
  natLt_1_32 : 1 < 32
  reduces_S8x8x128_S8x8 : S8x8x128.Reduces [2] S8x8
  slices_S64x128_o8_0_S8x128 : S64x128.Slices ![8, 0] S8x128
  slices_S64x128_o16_0_S8x128 : S64x128.Slices ![16, 0] S8x128
  slices_S64x128_o24_0_S8x128 : S64x128.Slices ![24, 0] S8x128
  slices_S64x128_o32_0_S8x128 : S64x128.Slices ![32, 0] S8x128
  slices_S64x128_o40_0_S8x128 : S64x128.Slices ![40, 0] S8x128
  slices_S64x128_o48_0_S8x128 : S64x128.Slices ![48, 0] S8x128
  slices_S64x128_o56_0_S8x128 : S64x128.Slices ![56, 0] S8x128
  concatenates_S8x8_S8x8_S8x8_S8x8_S8x8_S8x8_S8x8_S8x8_S8x64_d1 : Shape.Concatenates [S8x8, S8x8, S8x8, S8x8, S8x8, S8x8, S8x8, S8x8] S8x64 1
  inb_S8x64_S8x64_0_0 : ∀ a, (![0, 0] : Fin 2 → Nat) a + S8x64.size a ≤ S8x64.size a
  h_S8x64 : 0 < S8x64.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128.size a ≤ S64x128.size a
  hwx0_0 : ∀ i : grid0.Coords, EltTy.bits .f32 = 32 ∨ (Rect.block (s := S64x128) S8x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x64.size a ≤ S64x64.size a
  hwx0_2 : ∀ i : grid0.Coords, EltTy.bits .f32 = 32 ∨ (Rect.block (s := S64x64) S8x64.size (cc0_transform_2 i) (hinb0_2 i)).WholeWords (EltTy.packing .f32)

variable [Facts₀]

abbrev win0_0 : Pipeline.Window sig grid0 :=
  Pipeline.Window.ofSpec (Memref.whole main_arg1) S8x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x128 : Shape := ⟨2, ![64, 128]⟩
abbrev S64x1x128x1 : Shape := ⟨4, ![64, 1, 128, 1]⟩
abbrev S1x64x1x128 : Shape := ⟨4, ![1, 64, 1, 128]⟩
abbrev S64x64x128x128 : Shape := ⟨4, ![64, 64, 128, 128]⟩
abbrev S_ : Shape := ⟨0, ![]⟩
abbrev S64x64x128 : Shape := ⟨3, ![64, 64, 128]⟩
abbrev S64x64 : Shape := ⟨2, ![64, 64]⟩

abbrev nBuf : Space → Nat
  | .hbm => 16
  | .vmem => 0
  | .smem => 0
  | _ => 0

abbrev bufTy : (tb : Table) → Fin (tcTables nBuf tb) → BufTy
  | .hbm, ⟨0, _⟩ => ⟨S64x128, .f32⟩
  | .hbm, ⟨1, _⟩ => ⟨S64x128, .f32⟩
  | .hbm, ⟨2, _⟩ => ⟨S64x1x128x1, .f32⟩
  | .hbm, ⟨3, _⟩ => ⟨S1x64x1x128, .f32⟩
  | .hbm, ⟨4, _⟩ => ⟨S64x64x128x128, .f32⟩
  | .hbm, ⟨5, _⟩ => ⟨S64x64x128x128, .f32⟩
  | .hbm, ⟨6, _⟩ => ⟨S64x64x128x128, .f32⟩
  | .hbm, ⟨7, _⟩ => ⟨S64x64x128x128, .f32⟩
  | .hbm, ⟨8, _⟩ => ⟨S_, .f32⟩
  | .hbm, ⟨9, _⟩ => ⟨S64x64x128, .f32⟩
  | .hbm, ⟨10, _⟩ => ⟨S_, .f32⟩
  | .hbm, ⟨11, _⟩ => ⟨S64x64x128, .f32⟩
  | .hbm, ⟨12, _⟩ => ⟨S64x64x128, .i1⟩
  | .hbm, ⟨13, _⟩ => ⟨S64x64x128, .f32⟩
  | .hbm, ⟨14, _⟩ => ⟨S_, .f32⟩
  | .hbm, ⟨15, _⟩ => ⟨S64x64, .f32⟩
  | _, _ => ⟨S64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩

abbrev nD : Nat := 1
abbrev τ : Topo := Topo.v7x

variable {F : FTy → Type} [FloatOps F]

class Facts₀ : Prop where
  bcast_S64x128_S64x1x128x1_0_2 : S64x128.BroadcastsInDim S64x1x128x1 (![0, 2] : Fin 2 → Fin S64x1x128x1.rank)
  bcast_S64x128_S1x64x1x128_1_3 : S64x128.BroadcastsInDim S1x64x1x128 (![1, 3] : Fin 2 → Fin S1x64x1x128.rank)
  bcast_S64x1x128x1_S64x64x128x128_0_1_2_3 : S64x1x128x1.BroadcastsInDim S64x64x128x128 (![0, 1, 2, 3] : Fin 4 → Fin S64x64x128x128.rank)
  bcast_S1x64x1x128_S64x64x128x128_0_1_2_3 : S1x64x1x128.BroadcastsInDim S64x64x128x128 (![0, 1, 2, 3] : Fin 4 → Fin S64x64x128x128.rank)
  reducesTo_S64x64x128x128_S64x64x128_d3 : S64x64x128x128.ReducesTo [3] S64x64x128
  h_S_ : 0 < S_.numel
  bcast_S_S64x64x128 : S_.BroadcastsInDim S64x64x128 (![] : Fin 0 → Fin S64x64x128.rank)
  reducesTo_S64x64x128_S64x64_d2 : S64x64x128.ReducesTo [2] S64x64

variable [Facts₀]

class Facts : Prop extends Facts₀ where

variable [Facts]
-- ==== Proof.GapCount.lean ====
/-
  The counted quantity, as one function of two rows.

  Fix a row `za` of the first array and a row `ib` of the second, each of 128 extended reals. For a column `l` the
  GAP of `za l` to the row `ib` is the least distance `|za l − ib k|` over the 128 columns `k`, the minimum taken from
  `+∞`. The COUNT of the two rows is the number of columns `l` whose gap is positive, written as the sum over `l` of the
  indicator value (1 where the gap is positive, 0 elsewhere).

  The whole result array is `count zh it (i, j) = countRows (row i of zh) (row j of it)`, 64 × 64 entries.

  Everything is spelt with the float operations read at the ideal values (subtraction, absolute value and minimum of
  extended reals, the comparison's bit read as a number), so that both programs' terms meet it without any algebra:
  the two sides differ only in how they cut the index set into tiles, never in the order-free content of a minimum
  or of a sum. No law used here needs a finite value.
-/
import Idealize.ShloMosaic.PureOps.Ideal.Laws
import Idealize.ShloMosaic.Lib.ValueIdx

noncomputable section

namespace Cert.GapCount

open Idealize.ShloMosaic Idealize.ShloMosaic.ValueIdx

/-- The distance `|a − b|` of two extended reals. -/
def dist (a b : Ideal .f32) : Ideal .f32 :=
  FloatOps.absf (F := Ideal) (φ := .f32) (FloatOps.subf (F := Ideal) (φ := .f32) a b)

/-- The least distance from `a` to the 128 entries of `row`, the minimum taken from `+∞` (the word `0x7F800000`). -/
def gap (a : Ideal .f32) (row : Fin 128 → Ideal .f32) : Ideal .f32 :=
  (Finset.univ : Finset (Fin 128)).fold (FloatOps.minimumf (F := Ideal) (φ := .f32))
    (FloatOps.ofBits (F := Ideal) .f32 0x7F800000#32) (fun k => dist a (row k))

/-- The indicator of `0 < g`: the bit of the ordered comparison against zero, read as the number 0 or 1. -/
def positive (g : Ideal .f32) : Ideal .f32 :=
  FloatOps.uitofp (F := Ideal) .f32
    (FloatOps.cmpf (F := Ideal) (φ := .f32) .ogt g (FloatOps.ofBits (F := Ideal) .f32 0x00000000#32))

/-- How many entries of the row `za` keep a positive gap to the row `ib`. -/
def countRows (za ib : Fin 128 → Ideal .f32) : Ideal .f32 :=
  ∑ l : Fin 128, positive (gap (za l) ib)

/-- The result array: entry `(i, j)` counts row `i` of `zh` against row `j` of `it`. -/
def count (zh it : (⟨2, ![64, 128]⟩ : Shape).Idx → Ideal .f32) : (⟨2, ![64, 64]⟩ : Shape).Idx → Ideal .f32 :=
  fun y => countRows (fun l => zh (ix2 (⟨(y 0).val, idx2_lt0 y⟩ : Fin 64) l))
    (fun k => it (ix2 (⟨(y 1).val, idx2_lt1 y⟩ : Fin 64) k))

/-- The count depends on its two rows only through their entries. -/
theorem countRows_congr {za za' ib ib' : Fin 128 → Ideal .f32} (hz : ∀ l, za l = za' l) (hi : ∀ k, ib k = ib' k) :
    countRows za ib = countRows za' ib' := by
  rw [show za = za' from funext hz, show ib = ib' from funext hi]

end Cert.GapCount

end
-- ==== Proof.RefCount.lean ====
/-
  The reference computes the count.

  Its program broadcasts `zh` (the second argument) along axes 1 and 3 and `it` (the first argument) along axes 0 and
  2 of a 64 × 64 × 128 × 128 array, so that entry `(a, b, l, k)` of their difference's absolute value is the distance
  `|zh[a, l] − it[b, k]|`. The minimum over the last axis, from `+∞`, is then the gap of `zh[a, l]` to row `b` of
  `it` — a minimum of extended reals commutes and associates, so the order the program folds in is immaterial —, the
  comparison against zero and its conversion to a number are the indicator, and the sum over axis 2 from the initial
  value zero is the count of the two rows.
-/
import proofs.«133482_j54185307406552_2_alg».proof.Proof.Gen.ReferenceIdeal.Read
import proofs.«133482_j54185307406552_2_alg».proof.Proof.GapCount

noncomputable section

namespace Cert.ReferenceIdeal.RefValue

open Cert.ReferenceIdeal Cert.ReferenceIdeal.Gen Cert.ReferenceIdeal.Read
open Idealize.ShloMosaic Idealize.ShloMosaic.ValueIdx Cert.GapCount

/-- Dropping the last axis of the four-dimensional array leaves the three-dimensional one. -/
theorem reduces_last : S64x64x128x128.Reduces [3] S64x64x128 := by decide

/-- Entry `(a, b, l, k)` of the absolute difference is the distance from `zh[a, l]` to `it[b, k]`. -/
theorem absdiff_apply (x0 x1 : (⟨S64x128, .f32⟩ : BufTy).Contents (Elt Ideal)) (a b : Fin 64) (l k : Fin 128) :
    val_main_v5 (F := Ideal) x0 x1 (ix4 a b l k) = dist (x1 (ix2 a l)) (x0 (ix2 b k)) := by
  have e1 : idx_main_v0 (idx_main_v2 (ix4 a b l k)) = ix2 a l :=
    funext fun d => Fin.ext (by match d with | ⟨0, _⟩ => rfl | ⟨1, _⟩ => rfl)
  have e2 : idx_main_v1 (idx_main_v3 (ix4 a b l k)) = ix2 b k :=
    funext fun d => Fin.ext (by match d with | ⟨0, _⟩ => rfl | ⟨1, _⟩ => rfl)
  rw [val_main_v5_apply, val_main_v4_apply, val_main_v2_apply, val_main_v0_apply, val_main_v3_apply, val_main_v1_apply,
    e1, e2]
  rfl

/-- Entry `(a, b, l)` of the minimum over the last axis is the gap of `zh[a, l]` to row `b` of `it`. -/
theorem min_apply (x0 x1 : (⟨S64x128, .f32⟩ : BufTy).Contents (Elt Ideal)) (a b : Fin 64) (l : Fin 128) :
    val_main_v6 (F := Ideal) x0 x1 (ix3 a b l) = gap (x1 (ix2 a l)) (fun k => x0 (ix2 b k)) := by
  unfold val_main_v6
  refine (Host.reduce_eq_fold_single (FloatOps.minimumf (F := Ideal) (φ := .f32)) _ _
    reducesTo_S64x64x128x128_S64x64x128_d3 reduces_last h_S_ (ix3 a b l)).trans ?_
  show (Finset.univ : Finset (Fin 128)).fold (FloatOps.minimumf (F := Ideal) (φ := .f32))
      (FloatOps.ofBits (F := Ideal) .f32 0x7F800000#32)
      (fun k : Fin 128 => val_main_v5 (F := Ideal) x0 x1 (reduces_last.lift (ix3 a b l) k)) = _
  unfold gap
  refine Finset.fold_congr fun k _ => ?_
  have e : reduces_last.lift (ix3 a b l) k = ix4 a b l k :=
    funext fun d => Fin.ext (by match d with | ⟨0, _⟩ => rfl | ⟨1, _⟩ => rfl | ⟨2, _⟩ => rfl | ⟨3, _⟩ => rfl)
  rw [e]
  exact absdiff_apply x0 x1 a b l k

/-- The reference's result is the count of `zh`'s rows against `it`'s. -/
theorem result_eq_count (x0 x1 : (⟨S64x128, .f32⟩ : BufTy).Contents (Elt Ideal)) :
    val_main_v10 (F := Ideal) x0 x1 = count x1 x0 := by
  funext y
  obtain ⟨a, b, rfl⟩ : ∃ (a b : Fin 64), y = ix2 a b := ⟨y 0, y 1, eq_ix2 y⟩
  rw [val_main_v10_apply, val_main_cst_1_apply, Ideal.ofBits_def, Ideal.ofBits_zero_f32, zero_add]
  show _ = countRows (fun l => x1 (ix2 a l)) (fun k => x0 (ix2 b k))
  unfold countRows
  refine Finset.sum_congr rfl fun l _ => ?_
  have e : idx_main_v10 (ix2 a b) l = ix3 a b l :=
    funext fun d => Fin.ext (by match d with | ⟨0, _⟩ => rfl | ⟨1, _⟩ => rfl | ⟨2, _⟩ => rfl)
  rw [e, val_main_v9_apply, val_main_v8_apply, min_apply, val_main_v7_apply, val_main_cst_0_apply]
  rfl

end Cert.ReferenceIdeal.RefValue

end
-- ==== Proof.ChunkCount.lean ====
/-
  One chunk of the kernel's body computes the count of eight rows against eight rows.

  At a grid point the body holds a block `P0` of eight rows of `zh` and the whole of `it` as `P1`. For each of eight
  chunks it slices eight consecutive rows of `P1`, starting at row `o`, re-lays the block as an 8 × 1 × 128 × 1 array
  and the slice as a 1 × 8 × 1 × 128 array, and broadcasts both to 8 × 8 × 128 × 128: entry `(a, b, l, k)` of the first
  cube is `P0[a, l]`, of the second `P1[o + b, k]`. The absolute value of their difference is the distance, the minimum
  over the last axis from `+∞` the gap of `P0[a, l]` to row `o + b` of `P1`, the comparison with zero widened to a
  word and read as a number the indicator, and the sum over axis 2 from zero the count of row `a` of `P0` against row
  `o + b` of `P1`.

  The statements take the offset and the shape and format facts as variables, so that one lemma serves all eight chunks.
-/
import proofs.«133482_j54185307406552_2_alg».proof.Proof.Gen.KernelIdeal
import proofs.«133482_j54185307406552_2_alg».proof.Proof.GapCount
import Idealize.ShloMosaic.Lib.Pipeline.Value
import Idealize.ShloMosaic.Lib.KernelVsHost

noncomputable section

namespace Cert.KernelIdeal.Chunk

open Cert.KernelIdeal Idealize.ShloMosaic Idealize.ShloMosaic.ValueIdx Cert.GapCount

/-- The block of `zh`, re-laid and broadcast: entry `(a, b, l, k)` is `P0[a, l]`. -/
theorem zhCube_apply (P0 : Vec Ideal S8x128 .f32) (h1 : S8x128.ShapeCasts S8x1x128x1)
    (h2 : S8x1x128x1.Broadcasts S8x8x128x128) (a b : Fin 8) (l k : Fin 128) :
    broadcastTo S8x8x128x128 (shapeCast S8x1x128x1 P0 h1) h2 (ix4 a b l k) = P0 (ix2 a l) := by
  refine (broadcastTo_apply _ h2 (ix4 a b l k) (ix4 a (0 : Fin 1) l (0 : Fin 1)) fun d => ?_).trans ?_
  · match d with
    | ⟨0, _⟩ => show a.val = if (8 : Nat) = 1 then 0 else a.val; rw [if_neg (by decide)]
    | ⟨1, _⟩ => show 0 = if (1 : Nat) = 1 then 0 else b.val; rw [if_pos rfl]
    | ⟨2, _⟩ => show l.val = if (128 : Nat) = 1 then 0 else l.val; rw [if_neg (by decide)]
    | ⟨3, _⟩ => show 0 = if (1 : Nat) = 1 then 0 else k.val; rw [if_pos rfl]
  · refine shapeCast_apply P0 h1 _ (ix2 a l) ?_
    rw [Shape.rowMajor_val_two, Shape.rowMajor_val_four]
    show a.val * 128 + l.val = ((a.val * 1 + 0) * 128 + l.val) * 1 + 0
    omega

/-- Eight rows of `it` from row `o`, re-laid and broadcast: entry `(a, b, l, k)` is `P1[o + b, k]`. -/
theorem itCube_apply (P1 : Vec Ideal S64x128 .f32) (o : Nat) (hs : S64x128.Slices ![o, 0] S8x128)
    (h1 : S8x128.ShapeCasts S1x8x1x128) (h2 : S1x8x1x128.Broadcasts S8x8x128x128) (a b : Fin 8) (l k : Fin 128)
    (j : Fin 64) (hj : j.val = o + b.val) :
    broadcastTo S8x8x128x128 (shapeCast S1x8x1x128 (extractStridedSlice S8x128 ![o, 0] P1 hs) h1) h2 (ix4 a b l k)
      = P1 (ix2 j k) := by
  refine (broadcastTo_apply _ h2 (ix4 a b l k) (ix4 (0 : Fin 1) b (0 : Fin 1) k) fun d => ?_).trans ?_
  · match d with
    | ⟨0, _⟩ => show 0 = if (1 : Nat) = 1 then 0 else a.val; rw [if_pos rfl]
    | ⟨1, _⟩ => show b.val = if (8 : Nat) = 1 then 0 else b.val; rw [if_neg (by decide)]
    | ⟨2, _⟩ => show 0 = if (1 : Nat) = 1 then 0 else l.val; rw [if_pos rfl]
    | ⟨3, _⟩ => show k.val = if (128 : Nat) = 1 then 0 else k.val; rw [if_neg (by decide)]
  · refine (shapeCast_apply _ h1 _ (ix2 b k) ?_).trans ?_
    · rw [Shape.rowMajor_val_two, Shape.rowMajor_val_four]
      show b.val * 128 + k.val = (((0 : Nat) * 8 + b.val) * 1 + 0) * 128 + k.val
      omega
    · refine extractStridedSlice_apply ![o, 0] P1 hs (ix2 b k) (ix2 j k) fun d => ?_
      match d with
      | ⟨0, _⟩ => show j.val = o + b.val; exact hj
      | ⟨1, _⟩ => show k.val = 0 + k.val; omega

/-- The minimum over the last axis of an 8 × 8 × 128 × 128 array, from `+∞`, at `(a, b, l)`: the fold of `min` over
    the 128 entries `(a, b, l, k)`, in any order. -/
theorem minLast_apply (src : FVec Ideal S8x8x128x128 .f32) (h : S8x8x128x128.Reduces [3] S8x8x128)
    (hφ : FKind.Formats .f32) (hacc : (0x7F800000#32 : BitVec 32) = FKind.minimumf.neutral .f32 hφ)
    (a b : Fin 8) (l : Fin 128) :
    multiReduction .minimumf [3] S8x8x128 src 0x7F800000#32 h hφ hacc (ix3 a b l)
      = (Finset.univ : Finset (Fin 128)).fold (FloatOps.minimumf (F := Ideal) (φ := .f32))
          (FloatOps.ofBits (F := Ideal) .f32 0x7F800000#32) (fun k => src (ix4 a b l k)) := by
  rw [multiReduction_minimumf_eq_fold]
  refine (h.fold_filter_drop_single _ _ src (ix3 a b l)).trans ?_
  show (Finset.univ : Finset (Fin 128)).fold (FloatOps.minimumf (F := Ideal) (φ := .f32))
      (FloatOps.ofBits (F := Ideal) .f32 0x7F800000#32) (fun k : Fin 128 => src (h.lift (ix3 a b l) k)) = _
  refine Finset.fold_congr fun k _ => ?_
  exact congrArg src (funext fun d => Fin.ext (by
    match d with | ⟨0, _⟩ => rfl | ⟨1, _⟩ => rfl | ⟨2, _⟩ => rfl | ⟨3, _⟩ => rfl))

/-- The comparison with a splat of zero, widened to a 32-bit word and read as a signed number, is the indicator. -/
theorem indicator_apply (v : FVec Ideal S8x8x128 .f32) (h : 1 < 32) (i : S8x8x128.Idx) :
    (sitofp .f32 (extui 32 (cmpf .ogt v (broadcast S8x8x128 (Scalar.ofBits (F := Ideal) .f32 0x00000000#32))) h)
      : FVec Ideal S8x8x128 .f32) i = positive (v i) := by
  rw [sitofp_extui_eq_uitofp]
  rfl

/-- ONE CHUNK at `(a, b)`: the count of row `a` of the block against row `j = o + b` of `it`. -/
theorem chunk_apply (P0 : Vec Ideal S8x128 .f32) (P1 : Vec Ideal S64x128 .f32) (o : Nat)
    (hs : S64x128.Slices ![o, 0] S8x128) (c0 : S8x128.ShapeCasts S8x1x128x1) (c1 : S8x128.ShapeCasts S1x8x1x128)
    (b0 : S8x1x128x1.Broadcasts S8x8x128x128) (b1 : S1x8x1x128.Broadcasts S8x8x128x128)
    (r3 : S8x8x128x128.Reduces [3] S8x8x128) (r2 : S8x8x128.Reduces [2] S8x8)
    (hφ hφ' : FKind.Formats .f32) (hmin : (0x7F800000#32 : BitVec 32) = FKind.minimumf.neutral .f32 hφ)
    (hadd : (0x00000000#32 : BitVec 32) = FKind.add.neutral .f32 hφ') (hlt : 1 < 32)
    (a b : Fin 8) (j : Fin 64) (hj : j.val = o + b.val) :
    multiReduction .add [2] S8x8
        (sitofp .f32 (extui 32 (cmpf .ogt
          (multiReduction .minimumf [3] S8x8x128
            (absf (subf (broadcastTo S8x8x128x128 (shapeCast S8x1x128x1 P0 c0) b0)
              (broadcastTo S8x8x128x128 (shapeCast S1x8x1x128 (extractStridedSlice S8x128 ![o, 0] P1 hs) c1) b1)))
            0x7F800000#32 r3 hφ hmin)
          (broadcast S8x8x128 (Scalar.ofBits (F := Ideal) .f32 0x00000000#32))) hlt))
        0x00000000#32 r2 hφ' hadd (ix2 a b)
      = countRows (fun l => P0 (ix2 a l)) (fun k => P1 (ix2 j k)) := by
  refine (Ideal.multiReduction_add_single _ _ r2 hφ' hadd (ix2 a b)).trans ?_
  unfold countRows
  refine Finset.sum_congr rfl fun l _ => ?_
  have e : r2.lift (ix2 a b) l = ix3 a b l :=
    funext fun d => Fin.ext (by match d with | ⟨0, _⟩ => rfl | ⟨1, _⟩ => rfl | ⟨2, _⟩ => rfl)
  rw [e]
  refine (indicator_apply _ hlt (ix3 a b l)).trans (congrArg positive ?_)
  refine (minLast_apply _ r3 hφ hmin a b l).trans ?_
  unfold gap
  refine Finset.fold_congr fun k _ => ?_
  exact congrArg₂ dist (zhCube_apply P0 c0 b0 a b l k) (itCube_apply P1 o hs c1 b1 a b l k j hj)

end Cert.KernelIdeal.Chunk

end
-- ==== Proof.BlockCount.lean ====
/-
  What the body leaves in the output block, entry by entry.

  The body concatenates its eight 8 × 8 chunk results along axis 1 into the 8 × 64 block it stores. Chunk `n` was
  computed from rows `8 n … 8 n + 7` of `it`, so column `c` of the block lies in chunk `c / 8` at column `c % 8`, and
  names row `8 (c / 8) + c % 8 = c` of `it`: entry `(a, c)` of the block is the count of row `a` of the block of `zh`
  against row `c` of `it`, whatever the chunk width was.
-/
import proofs.«133482_j54185307406552_2_alg».proof.Proof.Gen.KernelIdeal.Value
import proofs.«133482_j54185307406552_2_alg».proof.Proof.ChunkCount

noncomputable section

namespace Cert.KernelIdeal.BlockValue

open Cert.KernelIdeal Cert.KernelIdeal.Gen Idealize.ShloMosaic Idealize.ShloMosaic.ValueIdx Cert.GapCount

/-- Chunk `n` of the concatenation at `(a, b)`: the count of row `a` of the block against row `j = 8 n + b` of `it`. -/
theorem chunk_apply (P0 : Vec Ideal S8x128 .f32) (P1 : Vec Ideal S64x128 .f32) :
    ∀ (n : Fin 8) (a b : Fin 8) (j : Fin 64), j.val = 8 * n.val + b.val →
      Value.Cat2_0 (F := Ideal) P0 P1 n (ix2 a b) = countRows (fun l => P0 (ix2 a l)) (fun k => P1 (ix2 j k))
  | ⟨0, _⟩, a, b, j, hj => Chunk.chunk_apply P0 P1 0 _ _ _ _ _ _ _ _ _ _ _ _ a b j (by omega)
  | ⟨1, _⟩, a, b, j, hj => Chunk.chunk_apply P0 P1 8 _ _ _ _ _ _ _ _ _ _ _ _ a b j (by omega)
  | ⟨2, _⟩, a, b, j, hj => Chunk.chunk_apply P0 P1 16 _ _ _ _ _ _ _ _ _ _ _ _ a b j (by omega)
  | ⟨3, _⟩, a, b, j, hj => Chunk.chunk_apply P0 P1 24 _ _ _ _ _ _ _ _ _ _ _ _ a b j (by omega)
  | ⟨4, _⟩, a, b, j, hj => Chunk.chunk_apply P0 P1 32 _ _ _ _ _ _ _ _ _ _ _ _ a b j (by omega)
  | ⟨5, _⟩, a, b, j, hj => Chunk.chunk_apply P0 P1 40 _ _ _ _ _ _ _ _ _ _ _ _ a b j (by omega)
  | ⟨6, _⟩, a, b, j, hj => Chunk.chunk_apply P0 P1 48 _ _ _ _ _ _ _ _ _ _ _ _ a b j (by omega)
  | ⟨7, _⟩, a, b, j, hj => Chunk.chunk_apply P0 P1 56 _ _ _ _ _ _ _ _ _ _ _ _ a b j (by omega)

/-- THE BLOCK at `(a, c)`: the count of row `a` of the block of `zh` against row `c` of `it`. -/
theorem block_apply (P0 : Vec Ideal S8x128 .f32) (P1 : Vec Ideal S64x128 .f32) (a : Fin 8) (c : Fin 64) :
    Value.E2 (F := Ideal) P0 P1 (ix2 a c) = countRows (fun l => P0 (ix2 a l)) (fun k => P1 (ix2 c k)) := by
  have hc : c.val % 8 < 8 := Nat.mod_lt _ (by decide)
  have e : Value.ix2_0 (ix2 a c) = ix2 a (⟨c.val % 8, hc⟩ : Fin 8) :=
    funext fun d => Fin.ext (by match d with | ⟨0, _⟩ => rfl | ⟨1, _⟩ => rfl)
  show Value.Cat2_0 (F := Ideal) P0 P1 (Value.csel2_0 (ix2 a c)) (Value.ix2_0 (ix2 a c)) = _
  rw [e]
  refine chunk_apply P0 P1 (Value.csel2_0 (ix2 a c)) a ⟨c.val % 8, hc⟩ c ?_
  show c.val = 8 * (c.val / 8) + c.val % 8
  omega

end Cert.KernelIdeal.BlockValue

end
-- ==== Proof.ArrayCount.lean ====
/-
  From the blocks to the whole result array, and the kernel's run.

  The grid has eight points. At point `t` the first window stages rows `8 t … 8 t + 7` of `zh`, the second the whole
  of `it` (its block index never moves), and the output window writes back the 8 × 64 block of rows `8 t … 8 t + 7`
  of the result. Entry `(a, c)` of what point `t` writes is the count of row `a` of its `zh` block — row `8 t + a` of
  `zh` — against row `c` of `it`: exactly entry `(8 t + a, c)` of the count array. So every point writes the block of
  ONE array, the eight blocks tile the 64 rows (row `r` lies in the block of point `r / 8`), and the result array ends
  as the count array.
-/
import proofs.«133482_j54185307406552_2_alg».proof.Proof.Gen.KernelIdeal.Value
import proofs.«133482_j54185307406552_2_alg».proof.Proof.BlockCount

noncomputable section

namespace Cert.KernelIdeal.ArrayValue

open Cert.KernelIdeal Cert.KernelIdeal.Gen Idealize.ShloMosaic Idealize.ShloMosaic.TcCoe Idealize.SL.Sem
open Idealize.ShloMosaic.ValueIdx Cert.GapCount
open Idealize.ShloMosaic.Pipeline (Dat)

variable (m : (ℓ : Loc nD τ sig) → Buf (Elt Ideal) ℓ) (ρ : Dev nD → PrngReg)

theorem zeros : (![0, 0] : Fin 2 → Nat) = fun _ => 0 := funext fun a => by fin_cases a <;> rfl

/-- The three index maps over the eight grid points: the `zh` window and the output window sit at block row `t`,
    column block 0; the `it` window stays at block (0, 0). -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry `(a, l)` of the `zh` block at point `t` is `zh[8 t + a, l]`. -/
theorem zhBlock_apply (c : Dev nD) (t : Fin cfg0.N) (a : Fin 8) (l : Fin 128) (i : Fin 64)
    (hi : i.val = 8 * t.val + a.val) :
    (iblk m c 0 t : Vec Ideal S8x128 .f32) (ix2 a l) = V m c main_arg1 (ix2 i l) := by
  obtain ⟨e0, e1, -⟩ := index_facts t
  show V m c main_arg1 (((cfg0.win 0).blk t).view.emb (ix2 a l)) = V m c main_arg1 (ix2 i l)
  refine congrArg (V m c main_arg1) (funext fun d => Fin.ext ?_)
  match d with
  | ⟨0, _⟩ => show win0_0.index t (0 : Fin 2) * 8 + 1 * a.val = i.val; omega
  | ⟨1, _⟩ => show win0_0.index t (1 : Fin 2) * 128 + 1 * l.val = l.val; omega

/-- Entry `(j, k)` of the `it` block at any point is `it[j, k]`. -/
theorem itBlock_apply (c : Dev nD) (t : Fin cfg0.N) (j : Fin 64) (k : Fin 128) (j' : Fin 64) (hj : j'.val = j.val) :
    (iblk m c 1 t : Vec Ideal S64x128 .f32) (ix2 j k) = V m c main_arg0 (ix2 j' k) := by
  obtain ⟨-, -, e2, e3, -⟩ := index_facts t
  show V m c main_arg0 (((cfg0.win 1).blk t).view.emb (ix2 j k)) = V m c main_arg0 (ix2 j' k)
  refine congrArg (V m c main_arg0) (funext fun d => Fin.ext ?_)
  match d with
  | ⟨0, _⟩ => show win0_1.index t (0 : Fin 2) * 64 + 1 * j.val = j'.val; omega
  | ⟨1, _⟩ => show win0_1.index t (1 : Fin 2) * 128 + 1 * k.val = k.val; omega

/-- What the body leaves in the output block from ANY two input blocks: entry `(a, c)` counts row `a` of the first
    against row `c` of the second (the body loads both staging buffers whole and stores its block whole). -/
theorem written_apply (x0 : Vec Ideal S8x128 .f32) (x1 : Vec Ideal S64x128 .f32) (a : Fin 8) (c : Fin 64) :
    out0_2 x0 x1 (ix2 a c) = countRows (fun l => x0 (ix2 a l)) (fun k => x1 (ix2 c k)) := by
  unfold out0_2
  refine (Value.canon2_eq _ _ (ix2 a c)).trans ?_
  rw [View.ld_unit_zero (S := S8x128) zeros, View.ld_unit_zero (S := S64x128) zeros]
  exact BlockValue.block_apply x0 x1 a c

/-- WHAT POINT `t` WRITES BACK is block `t` of the count array of the two arguments. -/
theorem flushed_eq (c : Dev nD) (t : Fin cfg0.N) :
    (dats m 0 c).flushed 2 t
      = ((cfg0.win 2).blk t).view.read (Elt Ideal) (count (V m c main_arg1) (V m c main_arg0)) := by
  obtain ⟨-, -, -, -, e4, e5⟩ := index_facts t
  rw [Value.flushed2]
  refine funext fun (y : S8x64.Idx) => ?_
  obtain ⟨a, b, rfl⟩ : ∃ (a : Fin 8) (b : Fin 64), y = ix2 a b := ⟨y 0, y 1, eq_ix2 y⟩
  show out0_2 (iblk m c 0 t) (iblk m c 1 t) (ix2 a b)
    = count (V m c main_arg1) (V m c main_arg0) (((cfg0.win 2).blk t).view.emb (ix2 a b))
  refine (written_apply (iblk m c 0 t) (iblk m c 1 t) a b).trans ?_
  show countRows _ _ = countRows _ _
  refine countRows_congr (fun l => ?_) (fun k => ?_)
  · refine zhBlock_apply m c t a l _ ?_
    show win0_2.index t (0 : Fin 2) * 8 + 1 * a.val = 8 * t.val + a.val
    omega
  · refine itBlock_apply m c t b k _ ?_
    show win0_2.index t (1 : Fin 2) * 64 + 1 * b.val = b.val
    omega

/-- An index of the result array is in point `t`'s block iff each coordinate is in the block's range on its axis. -/
theorem mem_blk (t : Fin cfg0.N) (i : S64x64.Idx) :
    i ∈ ((cfg0.win 2).blk t).view.set
      ↔ ∀ a : Fin 2, win0_2.index t a * S8x64.size a ≤ (i a).val
          ∧ (i a).val < win0_2.index t a * S8x64.size a + S8x64.size a := by
  show i ∈ ((View.whole main_v0).slice (win0_2.rect t)).set ↔ _
  rw [View.set_slice_whole, Rect.mem_set_unit]
  exact Iff.rfl

/-- Every index of the result array lies in the block of the point its row names: row `r` in block `r / 8`. -/
theorem cover (i : S64x64.Idx) :
    ∃ t : Fin cfg0.N, (cfg0.win 2).flush t = true ∧ i ∈ ((cfg0.win 2).blk t).view.set := by
  have hi0 : (i 0).val < 64 := (i 0).isLt
  have hi1 : (i 1).val < 64 := (i 1).isLt
  have hN : cfg0.N = 8 := N_0
  have hlt : (i 0).val / 8 < cfg0.N := by rw [hN]; omega
  refine ⟨⟨(i 0).val / 8, hlt⟩, flush0_2 _, ?_⟩
  obtain ⟨-, -, -, -, e4, e5⟩ := index_facts ⟨(i 0).val / 8, hlt⟩
  have e4' : win0_2.index ⟨(i 0).val / 8, hlt⟩ (0 : Fin 2) = (i 0).val / 8 := e4
  rw [mem_blk]
  intro a
  match a with
  | ⟨0, _⟩ =>
    show win0_2.index ⟨(i 0).val / 8, hlt⟩ (0 : Fin 2) * 8 ≤ (i 0).val
      ∧ (i 0).val < win0_2.index ⟨(i 0).val / 8, hlt⟩ (0 : Fin 2) * 8 + 8
    omega
  | ⟨1, _⟩ =>
    show win0_2.index ⟨(i 0).val / 8, hlt⟩ (1 : Fin 2) * 64 ≤ (i 1).val
      ∧ (i 1).val < win0_2.index ⟨(i 0).val / 8, hlt⟩ (1 : Fin 2) * 64 + 64
    omega

/-- THE RESULT ARRAY after the run is the count array of the two arguments as launched. -/
theorem final (c : Dev nD) :
    (dats m 0 c).arrAt 2 cfg0.N
      = count (m ((c : Thread nD τ).loc main_arg1)) (m ((c : Thread nD τ).loc main_arg0)) :=
  (dats m 0 c).arrAt_eq_of_cover 2 (count (V m c main_arg1) (V m c main_arg0)) (fun t _ => flushed_eq m c t) cover

/-- The kernel's run, read: the result at the count array, the two arguments unchanged. -/
theorem run : θ_run defs (onTc (τ := τ) (main (F := Ideal))) ⟨m, fun _ => 0, ρ⟩ fun r => ∀ c : Dev nD,
      r.2.mem ((c : Thread nD τ).loc main_v0)
        = count (m ((c : Thread nD τ).loc main_arg1)) (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.KernelIdeal.ArrayValue

end
-- ==== Proof.lean ====
/-
  Counting, for every pair of rows, the entries of one row that stay at a positive distance from every entry of the other.

  The arguments are two 64 × 128 arrays, `it` (first) and `zh` (second). For rows `i` of `zh` and `j` of `it` the result is
      out[i, j] = Σ_l 1[ min_k |zh[i, l] − it[j, k]| > 0 ],
  the minimum taken from `+∞` over the 128 columns `k`, the sum from 0 over the 128 columns `l`
  (Proof/GapCount.lean states it once, as `count zh it`).

  The reference forms the whole 64 × 64 × 128 × 128 array of distances, reduces its last axis by a minimum, compares with
  zero, converts the bit to a number and sums over axis 2 (Proof/RefCount.lean). The kernel runs over a grid of eight
  points; point `t` holds rows `8 t … 8 t + 7` of `zh` and all of `it`, treats `it` in eight chunks of eight rows,
  computes for each chunk the 8 × 8 × 128 × 128 distances, their minimum over the last axis, the indicator and its sum
  over axis 2, and stores the eight 8 × 8 results side by side as the 8 × 64 block of rows `8 t … 8 t + 7` of the result
  (Proof/ChunkCount.lean: one chunk; Proof/BlockCount.lean: the eight side by side; Proof/ArrayCount.lean: the eight
  blocks tile the result).

  At the ideal values both are the SAME function of the arguments, entry by entry: the two programs differ only in how
  they tile the index set, and a minimum of extended reals and a finite sum do not depend on the order or grouping they
  are taken in. The kernel's indicator widens the comparison's bit to a word and reads it as a signed number, the
  reference reads the bit as an unsigned number: both are 1 for a set bit and 0 otherwise. No step cancels, distributes
  or divides, so the precondition (finite inputs) is never used: the equality holds at the infinities too.

  The idealization rewrote no operation of the kernel, so there is nothing to preserve beyond the program's own text.
-/
import proofs.«133482_j54185307406552_2_alg».proof.Defs
import proofs.«133482_j54185307406552_2_alg».proof.Proof.Gen.Kernel
import proofs.«133482_j54185307406552_2_alg».proof.Proof.Gen.Kernel.Skeleton
import proofs.«133482_j54185307406552_2_alg».proof.Proof.Gen.Kernel.Launch
import proofs.«133482_j54185307406552_2_alg».proof.Proof.Gen.Kernel.Points
import proofs.«133482_j54185307406552_2_alg».proof.Proof.Gen.Kernel.Frame
import proofs.«133482_j54185307406552_2_alg».proof.Proof.Gen.KernelIdeal
import proofs.«133482_j54185307406552_2_alg».proof.Proof.Gen.KernelIdeal.Skeleton
import proofs.«133482_j54185307406552_2_alg».proof.Proof.Gen.KernelIdeal.Launch
import proofs.«133482_j54185307406552_2_alg».proof.Proof.Gen.KernelIdeal.Points
import proofs.«133482_j54185307406552_2_alg».proof.Proof.Gen.KernelIdeal.Frame
import proofs.«133482_j54185307406552_2_alg».proof.Proof.Gen.ReferenceIdeal
import proofs.«133482_j54185307406552_2_alg».proof.Proof.Gen.KernelIdeal.Value
import proofs.«133482_j54185307406552_2_alg».proof.Proof.Gen.ReferenceIdeal.Run
import proofs.«133482_j54185307406552_2_alg».proof.Proof.Gen.ReferenceIdeal.Read
import proofs.«133482_j54185307406552_2_alg».proof.Proof.Gen.Pre_finite_inputs
import proofs.«133482_j54185307406552_2_alg».proof.Proof.RefCount
import proofs.«133482_j54185307406552_2_alg».proof.Proof.ArrayCount
import Idealize.ShloMosaic.Adequacy
import Idealize.ShloMosaic.Init

noncomputable section

namespace Cert.Proof

open Idealize.ShloMosaic Idealize.ShloMosaic.TcCoe Idealize.SL.Sem

/-- The kernel as printed runs to the end without a fault and leaves its arguments as they were. -/
theorem frame_kernel : Cert.frame_Kernel := fun m ρ _ => Cert.Kernel.Gen.frame m ρ

/-- So does the kernel read at the ideal values. -/
theorem frame_ideal : Cert.frame_KernelIdeal := fun m ρ _ => Cert.KernelIdeal.Gen.frame m ρ

/-- So does the reference: its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten for the ideal reading. -/
theorem preserves : Cert.preserves_Kernel_KernelIdeal := trivial

/-- From memories agreeing on the two arguments, the kernel's result array and the reference's both end as the count
    array of `zh` against `it`. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.RefValue.result_eq_count,
    (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
